-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1200000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S5000x64 : Shape := ⟨2, ![5000, 64]⟩
abbrev S1200000x64 : Shape := ⟨2, ![1200000, 64]⟩
abbrev S12000x64 : Shape := ⟨2, ![12000, 64]⟩
abbrev S12000x1 : Shape := ⟨2, ![12000, 1]⟩
abbrev S1x64 : Shape := ⟨2, ![1, 64]⟩

abbrev nBuf : Space → Nat
  | .hbm => 51
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S_, .f32⟩
  | .hbm, ⟨9, _⟩ => ⟨S1200000, .f32⟩
  | .hbm, ⟨10, _⟩ => ⟨S_, .f32⟩
  | .hbm, ⟨11, _⟩ => ⟨S100000, .f32⟩
  | .hbm, ⟨12, _⟩ => ⟨S1200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000, .f32⟩
  | .hbm, ⟨33, _⟩ => ⟨S100000x64, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S1200000x1, .f32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S1x64, .f32⟩
  | .hbm, ⟨50, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S12000x64, .f32⟩
  | .local _ .vmem, ⟨6, _⟩ => ⟨S12000x64, .f32⟩
  | .local _ .vmem, ⟨7, _⟩ => ⟨S12000x1, .f32⟩
  | .local _ .vmem, ⟨8, _⟩ => ⟨S12000x1, .f32⟩
  | .local _ .vmem, ⟨9, _⟩ => ⟨S12000x64, .f32⟩
  | .local _ .vmem, ⟨10, _⟩ => ⟨S12000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1200000_S1200000x1 : S1200000.ShapeCasts S1200000x1
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  broadcasts_S12000x1_S12000x64 : S12000x1.Broadcasts S12000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x64.size a ≤ S1200000x64.size a
  hwx1_0 : ∀ i : grid1.Coords, EltTy.bits .f32 = 32 ∨ (Rect.block (s := S1200000x64) S12000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x1.size a ≤ S1200000x1.size a
  hwx1_1 : ∀ i : grid1.Coords, EltTy.bits .f32 = 32 ∨ (Rect.block (s := S1200000x1) S12000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x64.size a ≤ S1200000x64.size a
  hwx1_2 : ∀ i : grid1.Coords, EltTy.bits .f32 = 32 ∨ (Rect.block (s := S1200000x64) S12000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S12000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S12000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S12000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S_, .f32⟩
  | .hbm, ⟨9, _⟩ => ⟨S1200000, .f32⟩
  | .hbm, ⟨10, _⟩ => ⟨S_, .f32⟩
  | .hbm, ⟨11, _⟩ => ⟨S100000, .f32⟩
  | .hbm, ⟨12, _⟩ => ⟨S1200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000, .f32⟩
  | .hbm, ⟨33, _⟩ => ⟨S100000x64, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S1200000x1, .f32⟩
  | .hbm, ⟨44, _⟩ => ⟨S1200000x64, .f32⟩
  | .hbm, ⟨45, _⟩ => ⟨S1200000x64, .f32⟩
  | .hbm, ⟨46, _⟩ => ⟨S_, .f32⟩
  | .hbm, ⟨47, _⟩ => ⟨S100000x64, .f32⟩
  | .hbm, ⟨48, _⟩ => ⟨S1200000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.Spec.lean ====
/-
  The three dense stages of the graph convolution as whole-array functions, index by index, over literal shapes
  (N = 100000 nodes, E = 1200000 edges, D = 64 features). No program is imported here.

  * `MM x w`      — the linear layer: entry (p, q) is the sum over k of x[p, k] · w[k, q], on the extended reals;
  * `Scale a s`   — every row e of the gathered messages times that edge's weight s[e];
  * `Bias a b`    — every row of the aggregated messages plus the bias row b.

  The irregular stages (the degree count, the two gathers, the scatter-add) are the same host operations in the
  kernel's program and in the reference, and are never opened: both results are those operations applied to these
  three functions.
-/
import Idealize.ShloMosaic.PureOps.Ideal
import Idealize.ShloMosaic.Lib.ValueIdx

noncomputable section

open scoped BigOperators

namespace Cert.Spec

open Idealize.ShloMosaic Idealize.ShloMosaic.ValueIdx

/-- Node features, and every [N, D] array. -/
abbrev SN : Shape := ⟨2, ![100000, 64]⟩
/-- The weight matrix. -/
abbrev SW : Shape := ⟨2, ![64, 64]⟩
/-- One row of D features per edge. -/
abbrev SE : Shape := ⟨2, ![1200000, 64]⟩
/-- One number per edge. -/
abbrev SE1 : Shape := ⟨1, ![1200000]⟩
/-- The bias row. -/
abbrev SD : Shape := ⟨1, ![64]⟩

/-- The linear layer on the extended reals: `(x · w)[p, q] = ∑ k, x[p, k] · w[k, q]`. -/
def MM (x : SN.Idx → EReal) (w : SW.Idx → EReal) : SN.Idx → EReal :=
  fun i => ∑ k : Fin 64, x (ix2 (i 0) k) * w (ix2 k (i 1))

variable {F : FTy → Type} [FloatOps F]

/-- Row `e` of `a` scaled by the edge's weight `s[e]`. -/
def Scale (a : SE.Idx → F .f32) (s : SE1.Idx → F .f32) : SE.Idx → F .f32 :=
  fun i => FloatOps.mulf (a i) (s (ix1 (i 0)))

/-- Every row of `a` plus the row `b`. -/
def Bias (a : SN.Idx → F .f32) (b : SD.Idx → F .f32) : SN.Idx → F .f32 :=
  fun i => FloatOps.addf (a i) (b (ix1 (i 1)))

end Cert.Spec

end
-- ==== Proof.Graph.lean ====
/-
  The graph convolution as ONE function of its four arguments (node features x, the edge list, the weight matrix w
  and the bias row b), built from the three dense stages of `Spec` and the irregular host operations that the
  kernel's program and the reference share verbatim:

    row e, col e        the source and the target node of every edge (the two rows of the edge list);
    wrap r              a negative node number counted from the end (the index normalisation in front of a gather);
    deg r               how many edges leave each node: a scatter-add of ones at the sources;
    degInv r            1 / deg where deg > 0, else 0;
    weightOf d r        every edge's weight: d gathered at the edge's source;
    gatherRows xw r     the source node's row of xw, per edge;
    aggregate cl msg    the messages scatter-added at the targets, from zero;
    result x e w b      Bias (aggregate (col e) (Scale (gatherRows (MM x w) (row e)) (weightOf (degInv (row e)) (row e)))) b.

  None of the gathers and scatters is ever opened: whatever they do with out-of-range node numbers or repeated
  targets, both programs apply the same operation to the same operands.
-/
import proofs.«100785_j3143916060939_1_alg».proof.ReferenceIdeal
import proofs.«100785_j3143916060939_1_alg».proof.Proof.Gen.ReferenceIdeal
import proofs.«100785_j3143916060939_1_alg».proof.Proof.Spec

noncomputable section

namespace Cert.Graph

open Cert.ReferenceIdeal Cert.ReferenceIdeal.Gen Idealize.ShloMosaic Idealize.ShloMosaic.TcCoe Idealize.SL.Sem

variable {F : FTy → Type} [FloatOps F]

/-- The edges' source nodes: row 0 of the edge list. -/
def row (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000

/-- The edges' target nodes: row 1 of the edge list. -/
def col (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- A negative node number `r` is read as `r + 100000`. -/
def wrap (r : (⟨S1200000, .i32⟩ : BufTy).Contents (Elt F)) : (⟨S1200000, .i32⟩ : BufTy).Contents (Elt F) :=
  select (cmpi .slt r (broadcastInDim S1200000 ![] bcast_S_S1200000 (constantI S_ 32 0#32)))
    (addi r (broadcastInDim S1200000 ![] bcast_S_S1200000 (constantI S_ 32 100000#32))) r

/-- Out-degrees: ones scatter-added at the sources. -/
def deg (r : (⟨S1200000, .i32⟩ : BufTy).Contents (Elt F)) : (⟨S100000, .f32⟩ : BufTy).Contents (Elt F) :=
  Host.scatterAdd scatter_S100000_S1200000x1_S1200000_n_0_0_1
    (broadcastInDim S100000 ![] bcast_S_S100000 (constant S_ .f32 0x00000000#32))
    (broadcastInDim S1200000x1 ![0] bcast_S1200000_S1200000x1_0 r)
    (broadcastInDim S1200000 ![] bcast_S_S1200000 (constant S_ .f32 0x3F800000#32))

/-- `1 / deg` where `deg > 0`, else `0`. -/
def degInv (r : (⟨S1200000, .i32⟩ : BufTy).Contents (Elt F)) : (⟨S100000, .f32⟩ : BufTy).Contents (Elt F) :=
  select (cmpf (F := F) .ogt (deg r) (broadcastInDim S100000 ![] bcast_S_S100000 (constant S_ .f32 0x00000000#32)))
    (Host.divf (broadcastInDim S100000 ![] bcast_S_S100000 (constant S_ .f32 0x3F800000#32)) (deg r))
    (broadcastInDim S100000 ![] bcast_S_S100000 (id (constant S_ .f32 0x00000000#32)))

/-- Every edge's weight: `d` at the edge's source. -/
def weightOf (d : (⟨S100000, .f32⟩ : BufTy).Contents (Elt F)) (r : (⟨S1200000, .i32⟩ : BufTy).Contents (Elt F)) :
    (⟨S1200000, .f32⟩ : BufTy).Contents (Elt F) :=
  Host.gather gather_S100000_S1200000x1_S1200000_n_0_n_n_0_1_1 d (broadcastInDim S1200000x1 ![0] bcast_S1200000_S1200000x1_0 (wrap r))

/-- Per edge, the source node's row of `xw`. -/
def gatherRows (xw : (⟨S100000x64, .f32⟩ : BufTy).Contents (Elt F)) (r : (⟨S1200000, .i32⟩ : BufTy).Contents (Elt F)) :
    (⟨S1200000x64, .f32⟩ : BufTy).Contents (Elt F) :=
  Host.gather gather_S100000x64_S1200000x1_S1200000x64_1_0_n_n_0_1_164 xw (broadcastInDim S1200000x1 ![0] bcast_S1200000_S1200000x1_0 (wrap r))

/-- The messages scatter-added at the target nodes, from zero. -/
def aggregate (cl : (⟨S1200000, .i32⟩ : BufTy).Contents (Elt F)) (msg : (⟨S1200000x64, .f32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 cl) msg

/-- The whole layer, on the extended reals. -/
def result (x : (⟨S100000x64, .f32⟩ : BufTy).Contents (Elt Ideal)) (e : (⟨S2x1200000, .i32⟩ : BufTy).Contents (Elt Ideal))
    (w : (⟨S64x64, .f32⟩ : BufTy).Contents (Elt Ideal)) (b : (⟨S64, .f32⟩ : BufTy).Contents (Elt Ideal)) :
    (⟨S100000x64, .f32⟩ : BufTy).Contents (Elt Ideal) :=
  Cert.Spec.Bias (F := Ideal)
    (aggregate (F := Ideal) (col (F := Ideal) e)
      (Cert.Spec.Scale (F := Ideal) (gatherRows (F := Ideal) (Cert.Spec.MM x w) (row (F := Ideal) e))
        (weightOf (F := Ideal) (degInv (F := Ideal) (row (F := Ideal) e)) (row (F := Ideal) e)))) b

end Cert.Graph

end
-- ==== Proof.RefValue.lean ====
/-
  The reference's result term is `Graph.result`: its three dense stages read index by index —
    * the host's matrix product of x and w, one contracted axis, is the sum over k of x[p, k] · w[k, q] on the
      extended reals;
    * the product with the edge weights broadcast along the feature axis is the row-wise scaling;
    * the sum with the bias broadcast along the node axis is the row-wise addition of the bias row —
  and everything else in the term is already spelt as in `Graph`.
-/
import proofs.«100785_j3143916060939_1_alg».proof.Proof.RefRun
import proofs.«100785_j3143916060939_1_alg».proof.Proof.Graph
import Idealize.ShloMosaic.Lib.Pipeline.Value
import Idealize.ShloMosaic.Lib.ValueIdx
import Idealize.ShloMosaic.PureOps.Ideal.Laws

noncomputable section

open scoped BigOperators

namespace Cert.Graph

open Cert.ReferenceIdeal Cert.ReferenceIdeal.Gen Idealize.ShloMosaic Idealize.ShloMosaic.TcCoe Idealize.ShloMosaic.ValueIdx Idealize.SL.Sem

/-! ## The matrix product at an index -/

theorem dot_lhs0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dot_lhs1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem dot_rhs0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem dot_rhs1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's product of an [N, 64] by a [64, 64] matrix, contracted over the one shared axis, is `Spec.MM`. -/
theorem dot_eq_MM (x : FVec Ideal S100000x64 .f32) (w : FVec Ideal S64x64 .f32) :
    Host.dotGeneral (F := Ideal) dot_S100000x64_S64x64_S100000x64_1_0_0_1_n_n none x w = Cert.Spec.MM x w := by
  funext i
  simp only [Host.dotGeneral]
  rw [Ideal.dotGeneral_apply, ← Equiv.sum_comp (ValueIdx.contrEquiv1 dot_S100000x64_S64x64_S100000x64_1_0_0_1_n_n 64 rfl rfl).symm]
  unfold Cert.Spec.MM
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (i 0) k := funext fun a => Fin.ext (by
    match a with
    | ⟨0, _⟩ => exact dot_lhs0 _ _
    | ⟨1, _⟩ => exact (dot_lhs1 _ _).trans hk)
  have er : dot_S100000x64_S64x64_S100000x64_1_0_0_1_n_n.rhsIdx i ((ValueIdx.contrEquiv1 dot_S100000x64_S64x64_S100000x64_1_0_0_1_n_n 64 rfl rfl).symm k) = ix2 k (i 1) := funext fun a => Fin.ext (by
    match a with
    | ⟨0, _⟩ => exact (dot_rhs0 _ _).trans hk
    | ⟨1, _⟩ => exact dot_rhs1 _ _)
  rw [el, er] <;> rfl

/-! ## The two broadcasts -/

variable {F : FTy → Type} [FloatOps F]

/-- A number per edge laid as a column and repeated along the feature axis, times the messages: the row-wise scaling. -/
theorem scale_eq (a : FVec F S1200000x64 .f32) (s : FVec F S1200000 .f32) :
    mulf a (broadcastInDim S1200000x64 ![0, 1] bcast_S1200000x1_S1200000x64_0_1 (broadcastInDim S1200000x1 ![0] bcast_S1200000_S1200000x1_0 s))
      = Cert.Spec.Scale (F := F) a s := by
  funext i
  show FloatOps.mulf (a i) _ = FloatOps.mulf (a i) (s (ix1 (i 0)))
  refine congrArg (FloatOps.mulf (a i)) ?_
  have h1 := broadcastInDim_apply (![0, 1] : Fin S1200000x1.rank → Fin S1200000x64.rank) bcast_S1200000x1_S1200000x64_0_1
    (broadcastInDim S1200000x1 ![0] bcast_S1200000_S1200000x1_0 s) i (ix2 (i 0) (0 : Fin 1)) (fun a => match a with
    | ⟨0, _⟩ => by show (i 0).val = if (1200000 : Nat) = 1 then 0 else (i 0).val; rw [if_neg (by decide)]
    | ⟨1, _⟩ => by show 0 = if (1 : Nat) = 1 then 0 else (i 1).val; rw [if_pos rfl])
  have h0 := broadcastInDim_apply (![0] : Fin S1200000.rank → Fin S1200000x1.rank) bcast_S1200000_S1200000x1_0 s (ix2 (i 0) (0 : Fin 1)) (ix1 (i 0)) (fun a => match a with
    | ⟨0, _⟩ => by show (i 0).val = if (1200000 : Nat) = 1 then 0 else (i 0).val; rw [if_neg (by decide)])
  exact h1.trans h0

/-- The bias laid as a row and repeated along the node axis, added to the aggregated messages: the row-wise sum. -/
theorem bias_eq (a : FVec F S100000x64 .f32) (b : FVec F S64 .f32) :
    addf a (broadcastInDim S100000x64 ![0, 1] bcast_S1x64_S100000x64_0_1 (broadcastInDim S1x64 ![1] bcast_S64_S1x64_1 b))
      = Cert.Spec.Bias (F := F) a b := by
  funext i
  show FloatOps.addf (a i) _ = FloatOps.addf (a i) (b (ix1 (i 1)))
  refine congrArg (FloatOps.addf (a i)) ?_
  have h1 := broadcastInDim_apply (![0, 1] : Fin S1x64.rank → Fin S100000x64.rank) bcast_S1x64_S100000x64_0_1
    (broadcastInDim S1x64 ![1] bcast_S64_S1x64_1 b) i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
  have h0 := broadcastInDim_apply (![1] : Fin S64.rank → Fin S1x64.rank) bcast_S64_S1x64_1 b (ix2 (0 : Fin 1) (i 1)) (ix1 (i 1)) (fun a => match a with
    | ⟨0, _⟩ => by show (i 1).val = if (64 : Nat) = 1 then 0 else (i 1).val; rw [if_neg (by decide)])
  exact h1.trans h0

/-! ## The reference's term -/

/-- The composed term the reference's run ends at is `Graph.result` of the arguments. -/
theorem ref_result (x : FVec Ideal S100000x64 .f32) (e : IVec S2x1200000 32) (w : FVec Ideal S64x64 .f32) (b : FVec Ideal S64 .f32) :
    addf (F := Ideal) (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (shapeCast _ (extractStridedSlice S1x1200000 ![1, 0] e slices_S2x1200000_S1x1200000_1_0) shapeCasts_S1x1200000_S1200000)) (mulf (Host.gather gather_S100000x64_S1200000x1_S1200000x64_1_0_n_n_0_1_164 (Host.dotGeneral dot_S100000x64_S64x64_S100000x64_1_0_0_1_n_n none x w) (broadcastInDim S1200000x1 ![0] bcast_S1200000_S1200000x1_0 (select (cmpi .slt (shapeCast _ (extractStridedSlice S1x1200000 ![0, 0] e slices_S2x1200000_S1x1200000_0_0) shapeCasts_S1x1200000_S1200000) (broadcastInDim S1200000 ![] bcast_S_S1200000 (constantI S_ 32 0#32))) (addi (shapeCast _ (extractStridedSlice S1x1200000 ![0, 0] e slices_S2x1200000_S1x1200000_0_0) shapeCasts_S1x1200000_S1200000) (broadcastInDim S1200000 ![] bcast_S_S1200000 (constantI S_ 32 100000#32))) (shapeCast _ (extractStridedSlice S1x1200000 ![0, 0] e slices_S2x1200000_S1x1200000_0_0) shapeCasts_S1x1200000_S1200000)))) (broadcastInDim S1200000x64 ![0, 1] bcast_S1200000x1_S1200000x64_0_1 (broadcastInDim S1200000x1 ![0] bcast_S1200000_S1200000x1_0 (Host.gather gather_S100000_S1200000x1_S1200000_n_0_n_n_0_1_1 (select (cmpf (F := Ideal) .ogt (Host.scatterAdd scatter_S100000_S1200000x1_S1200000_n_0_0_1 (broadcastInDim S100000 ![] bcast_S_S100000 (constant S_ .f32 0x00000000#32)) (broadcastInDim S1200000x1 ![0] bcast_S1200000_S1200000x1_0 (shapeCast _ (extractStridedSlice S1x1200000 ![0, 0] e slices_S2x1200000_S1x1200000_0_0) shapeCasts_S1x1200000_S1200000)) (broadcastInDim S1200000 ![] bcast_S_S1200000 (constant S_ .f32 0x3F800000#32))) (broadcastInDim S100000 ![] bcast_S_S100000 (constant S_ .f32 0x00000000#32))) (Host.divf (broadcastInDim S100000 ![] bcast_S_S100000 (constant S_ .f32 0x3F800000#32)) (Host.scatterAdd scatter_S100000_S1200000x1_S1200000_n_0_0_1 (broadcastInDim S100000 ![] bcast_S_S100000 (constant S_ .f32 0x00000000#32)) (broadcastInDim S1200000x1 ![0] bcast_S1200000_S1200000x1_0 (shapeCast _ (extractStridedSlice S1x1200000 ![0, 0] e slices_S2x1200000_S1x1200000_0_0) shapeCasts_S1x1200000_S1200000)) (broadcastInDim S1200000 ![] bcast_S_S1200000 (constant S_ .f32 0x3F800000#32)))) (broadcastInDim S100000 ![] bcast_S_S100000 (id (constant S_ .f32 0x00000000#32)))) (broadcastInDim S1200000x1 ![0] bcast_S1200000_S1200000x1_0 (select (cmpi .slt (shapeCast _ (extractStridedSlice S1x1200000 ![0, 0] e slices_S2x1200000_S1x1200000_0_0) shapeCasts_S1x1200000_S1200000) (broadcastInDim S1200000 ![] bcast_S_S1200000 (constantI S_ 32 0#32))) (addi (shapeCast _ (extractStridedSlice S1x1200000 ![0, 0] e slices_S2x1200000_S1x1200000_0_0) shapeCasts_S1x1200000_S1200000) (broadcastInDim S1200000 ![] bcast_S_S1200000 (constantI S_ 32 100000#32))) (shapeCast _ (extractStridedSlice S1x1200000 ![0, 0] e slices_S2x1200000_S1x1200000_0_0) shapeCasts_S1x1200000_S1200000)))))))) (broadcastInDim S100000x64 ![0, 1] bcast_S1x64_S100000x64_0_1 (broadcastInDim S1x64 ![1] bcast_S64_S1x64_1 b))
      = result x e w b := by
  rw [dot_eq_MM, scale_eq, bias_eq]
  rfl

end Cert.Graph

end
-- ==== Proof.Region0.lean ====
/-
  Region 0 of the graph convolution: the linear layer xw = x · W, computed twenty rows-blocks at a time.

  The node features x are 100000 rows of 64 numbers and W is 64 by 64. Grid point t (t = 0 … 19) reads the block of
  rows 5000·t … 5000·t + 4999 of x, reads all of W, and writes the block of the same rows of the result. Entry
  (p, q) of a block's product is the sum over k of block[p, k] · W[k, q]; it depends on row 5000·t + p of x only, and on
  column q of W. A block's coordinate in the array is always block index × block size + the coordinate inside the
  block, so what point t writes back is exactly block t of the whole product, and since the twenty blocks tile the
  100000 rows (row r lies in block r / 5000) the array ends holding the whole product, entry by entry.
-/
import proofs.«100785_j3143916060939_1_alg».proof.Proof.Gen.KernelIdeal.Frame
import proofs.«100785_j3143916060939_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- On the left operand the row comes from the output index. -/
theorem lhs0_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin _) ∈ dot_S5000x64_S64x64_S5000x64_1_0_0_1_n_n.lhsBatch by decide),
    dif_pos (show (0 : Fin _) ∈ dot_S5000x64_S64x64_S5000x64_1_0_0_1_n_n.lhsNonContracting by decide)]
  rfl
/-- On the left operand the column is the summation position. -/
theorem lhs0_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- On the right operand the row is the summation position. -/
theorem rhs0_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- On the right operand the column comes from the output index. -/
theorem rhs0_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin _) ∈ dot_S5000x64_S64x64_S5000x64_1_0_0_1_n_n.rhsBatch by decide),
    dif_pos (show (1 : Fin _) ∈ dot_S5000x64_S64x64_S5000x64_1_0_0_1_n_n.rhsNonContracting by decide)]
  rfl

/-- ONE TILE: entry (p, q) of the product of a 5000-row tile with the weight matrix is the sum over k of
    tile[p, k] · weight[k, q]. On the extended reals a change of float format is the identity, and a product into a
    zero accumulator with one summed axis is the plain sum over that axis. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact lhs0_0 _ _
      | ⟨1, _⟩ => exact (lhs0_1 _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (rhs0_0 _ _).trans hk
      | ⟨1, _⟩ => exact rhs0_1 _ _)
  rw [el, er]
  rfl

/-- The zero offset of a whole-buffer access, as the constant function. -/
theorem hz0 : (![0, 0] : Fin 2 → Nat) = fun _ => 0 := funext fun a => by fin_cases a <;> rfl

/-- The index maps, decided once over the twenty grid points: at point t the feature window and the output window
    are both at block (t, 0), and the weight window is at block (0, 0). -/
theorem idx_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

section
variable (V : (c : Dev nD) → (b : Ref sig .tc) → Buf (Elt Ideal) ((c : Thread nD τ).loc b))

/-- ONE BLOCK ROW: at grid point t, entry (p, q) of the tile product computed from the windows' blocks is the
    whole-array product at the place where the output block puts (p, q). The feature block's row p and the output
    block's row p are the same array row (both windows sit at block row t), and the weight block is the whole
    weight matrix. -/
theorem point0_apply (c : Dev nD) (t : Fin cfg0.N) (p : Fin 5000) (q : Fin 64) :
    k0_pay1 (F := Ideal) (iblk0 V c 0 t) (iblk0 V c 1 t) (ix2 p q)
      = Cert.Spec.MM (V c main_arg0) (V c main_arg2) (((cfg0.win 2).blk t).view.emb (ix2 p q)) := by
  refine (pay0_apply _ _ p q).trans ?_
  unfold Cert.Spec.MM
  obtain ⟨e0, e1, e2, e3, e4, e5⟩ := idx_facts0 t
  refine Finset.sum_congr rfl fun k _ => ?_
  have h0 : ((cfg0.win 0).blk t).view.emb (ix2 p k) = ix2 (((cfg0.win 2).blk t).view.emb (ix2 p q) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q) = ix2 k (((cfg0.win 2).blk t).view.emb (ix2 p q) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  have f0 : iblk0 (F := Ideal) V c 0 t (ix2 p k) = V c main_arg0 (((cfg0.win 0).blk t).view.emb (ix2 p k)) := rfl
  have f1 : iblk0 (F := Ideal) V c 1 t (ix2 k q) = V c main_arg2 (((cfg0.win 1).blk t).view.emb (ix2 k q)) := rfl
  rw [f0, f1, h0, h1]
  rfl

/-- WHAT POINT t WRITES BACK is block t of the whole-array product of the arrays as the region finds them. -/
theorem flushed0_eq (c : Dev nD) (t : Fin cfg0.N) :
    (dat0 (F := Ideal) V c).flushed 2 t
      = ((cfg0.win 2).blk t).view.read (Elt Ideal) (Cert.Spec.MM (V c main_arg0) (V c main_arg2)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  refine funext fun (j : S5000x64.Idx) => ?_
  have hj := eq_ix2 j
  show k0_pay1 (F := Ideal) (iblk0 V c 0 t) (iblk0 V c 1 t) j
    = Cert.Spec.MM (V c main_arg0) (V c main_arg2) (((cfg0.win 2).blk t).view.emb j)
  rw [hj]
  exact point0_apply V c t (j 0) (j 1)

end

/-- An index of the array is in point t's output block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v20).slice (win0_2.rect t)).set ↔ _
  rw [View.set_slice_whole, Rect.mem_set_unit]
  exact Iff.rfl

/-- THE OUTPUT BLOCKS TILE THE ARRAY: row r lies in the block of point r / 5000 (twenty blocks of 5000 rows make the
    100000 rows), and every block spans all 64 columns. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, -⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE ARRAY after the region: the linear layer of the node features and the weight matrix as the region finds
    them, since every point writes back its block of that product and the blocks tile the array. -/
theorem final0 (V : (c : Dev nD) → (b : Ref sig .tc) → Buf (Elt Ideal) ((c : Thread nD τ).loc b)) (c : Dev nD) :
    (dat0 (F := Ideal) V c).arrAt 2 cfg0.N = Cert.Spec.MM (V c main_arg0) (V c main_arg2) := by
  exact (dat0 (F := Ideal) V c).arrAt_eq_of_cover 2 (Cert.Spec.MM (V c main_arg0) (V c main_arg2))
    (fun t _ => flushed0_eq V c t) cover0

end Cert.KernelIdeal.RegionValue

end
-- ==== Proof.Region1.lean ====
/-
  Region 1: the messages times the edge weights, from blocks to the whole array.

  The edge axis (1200000 rows) is cut into 100 consecutive blocks of 12000 rows. At block `t` the region reads rows
  `12000·t … 12000·t + 11999` of the gathered messages (64 columns) and the same rows of the one-column array of edge
  weights, and writes the same rows of its result. Inside a block the column of weights is repeated along the 64
  features, so the entry at row `p`, column `q` of the block is the product of the message entry at `(p, q)` and the
  weight at `(p, 0)`: one multiplication of two loaded entries, nothing else. An entry `(e, q)` of the result therefore
  depends on the message entry `(e, q)` and on the weight of edge `e` only.

  A coordinate inside the array is the block's number times 12000 plus the coordinate inside the block (on the column
  axis the block's number is 0 and the block is as wide as the array). Every row `e` lies in exactly the block
  `e / 12000`, so the 100 blocks cover the array and the array ends holding the whole-array function `Scale`.
-/
import proofs.«100785_j3143916060939_1_alg».proof.Proof.Gen.KernelIdeal.Frame
import proofs.«100785_j3143916060939_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

/-- The zero offsets of a whole-block access, however they are spelt. -/
theorem hz1 : (![0, 0] : Fin 2 → Nat) = fun _ => 0 := funext fun a => by fin_cases a <;> rfl

/-- A `[12000, 1]` column repeated along 64 columns reads, at `(p, q)`, the column at `(p, 0)`. -/
theorem broadcastTo_col1 {α : Type} (v : S12000x1.Idx → α) (h : S12000x1.Broadcasts S12000x64) (p : Fin 12000) (q : Fin 64) :
    broadcastTo S12000x64 v h (ix2 p q) = v (ix2 p (0 : Fin 1)) := by
  refine broadcastTo_apply v h (ix2 p q) (ix2 p (0 : Fin 1)) fun ax => ?_
  match ax with
  | ⟨0, _⟩ =>
    show p.val = if (12000 : Nat) = 1 then 0 else p.val
    rw [if_neg (by decide)]
  | ⟨1, _⟩ => rfl

/-- The block's entry at `(p, q)`: the message entry there times the weight of row `p`. -/
theorem pay1_eq (x0 : Vec F S12000x64 .f32) (x1 : Vec F S12000x1 .f32) (p : Fin 12000) (q : Fin 64) :
    k1_pay1 x0 x1 (ix2 p q) = FloatOps.mulf (x0 (ix2 p q)) (x1 (ix2 p (0 : Fin 1))) := by
  unfold k1_pay1
  show FloatOps.mulf (shapeCast S12000x64 x0 shapeCasts_S12000x64_S12000x64 (ix2 p q))
      (broadcastTo S12000x64 (shapeCast S12000x1 x1 shapeCasts_S12000x1_S12000x1) broadcasts_S12000x1_S12000x64 (ix2 p q)) = _
  rw [shapeCast_self, broadcastTo_col1, shapeCast_self]

/-- What the body leaves in the result's block is that product of its two loaded blocks. -/
theorem out1_eq (x0 : Vec F S12000x64 .f32) (x1 : Vec F S12000x1 .f32) : out1_2 x0 x1 = k1_pay1 x0 x1 := by
  unfold out1_2
  rw [View.canon_unit_zero hz1]
  simp only [View.ld_unit_zero (S := S12000x64) hz1, View.ld_unit_zero (S := S12000x1) hz1]

/-- The three windows' block numbers, decided once over the 100 points: on the row axis the point's number, on the
    column axis 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled messages: rows `12000·t + p` of both inputs meet at row
    `12000·t + p` of the result. -/
theorem flushed1_eq (V : (c : Dev nD) → (b : Ref sig .tc) → Buf (Elt F) ((c : Thread nD τ).loc b)) (c : Dev nD) (t : Fin cfg1.N) :
    (dat1 (F := F) V c).flushed 2 t = ((cfg1.win 2).blk t).view.read (Elt F)
      (Cert.Spec.Scale (F := F) (V c main_v27) (fun e => (V c main_v28 : S1200000x1.Idx → Elt F .f32) (ix2 (e 0) (0 : Fin 1)))) := by
  show (cfg1.win 2).cut (grid1.coords t) ((dat1 V c).after 2 t) = _
  rw [after1_2, out1_eq]
  obtain ⟨e0, e1, e2, e3, e4, e5⟩ := idx_facts1 t
  funext j
  obtain ⟨p, q, rfl⟩ : ∃ (p : Fin 12000) (q : Fin 64), j = ix2 p q := ⟨j 0, j 1, eq_ix2 j⟩
  refine (pay1_eq _ _ p q).trans ?_
  show FloatOps.mulf (V c main_v27 (((cfg1.win 0).blk t).view.emb (ix2 p q)))
        (V c main_v28 (((cfg1.win 1).blk t).view.emb (ix2 p (0 : Fin 1))))
      = FloatOps.mulf (V c main_v27 (((cfg1.win 2).blk t).view.emb (ix2 p q)))
        ((V c main_v28 : S1200000x1.Idx → Elt F .f32) (ix2 ((((cfg1.win 2).blk t).view.emb (ix2 p q)) 0) (0 : Fin 1)))
  have h0 : ((cfg1.win 0).blk t).view.emb (ix2 p q) = ((cfg1.win 2).blk t).view.emb (ix2 p q) := by
    funext a; apply Fin.ext
    match a with
    | ⟨0, _⟩ => show win1_0.index t (0 : Fin 2) * 12000 + 1 * p.val = win1_2.index t (0 : Fin 2) * 12000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 12000 + 1 * p.val = win1_2.index t (0 : Fin 2) * 12000 + 1 * p.val; omega
    | ⟨1, _⟩ => show win1_1.index t (1 : Fin 2) * 1 + 1 * 0 = 0; omega
  rw [h0, h1]
  rfl

/-- An index of the array is in point `t`'s block iff each coordinate is in the block's range on its axis. -/
theorem mem_blk1 (t : Fin cfg1.N) (i : S1200000x64.Idx) :
    i ∈ ((cfg1.win 2).blk t).view.set ↔ ∀ a : Fin 2, win1_2.index t a * S12000x64.size a ≤ (i a).val ∧ (i a).val < win1_2.index t a * S12000x64.size a + S12000x64.size a := by
  show i ∈ ((View.whole main_v29).slice (win1_2.rect t)).set ↔ _
  rw [View.set_slice_whole, Rect.mem_set_unit]
  exact Iff.rfl

/-- Row `e` of the array lies in block `e / 12000`: the 100 blocks cover the array. -/
theorem cover1 (i : S1200000x64.Idx) :
    ∃ t : Fin cfg1.N, (cfg1.win 2).flush t = true ∧ i ∈ ((cfg1.win 2).blk t).view.set := by
  have hi0 : (i 0).val < 1200000 := (i 0).isLt
  have hi1 : (i 1).val < 64 := (i 1).isLt
  have hN : grid1.N = 100 := N_1
  have ht : (i 0).val / 12000 < cfg1.N := by show (i 0).val / 12000 < grid1.N; rw [hN]; omega
  obtain ⟨e0, e1, e2, e3, e4, e5⟩ := idx_facts1 ⟨(i 0).val / 12000, ht⟩
  have e4' : win1_2.index (⟨(i 0).val / 12000, ht⟩ : Fin cfg1.N) (0 : Fin 2) = (i 0).val / 12000 := e4
  refine ⟨⟨(i 0).val / 12000, ht⟩, flush1_2 _, ?_⟩
  rw [mem_blk1]
  intro a
  match a with
  | ⟨0, _⟩ =>
    show win1_2.index (⟨(i 0).val / 12000, ht⟩ : Fin cfg1.N) (0 : Fin 2) * 12000 ≤ (i 0).val
      ∧ (i 0).val < win1_2.index (⟨(i 0).val / 12000, ht⟩ : Fin cfg1.N) (0 : Fin 2) * 12000 + 12000
    omega
  | ⟨1, _⟩ =>
    show win1_2.index (⟨(i 0).val / 12000, ht⟩ : Fin cfg1.N) (1 : Fin 2) * 64 ≤ (i 1).val
      ∧ (i 1).val < win1_2.index (⟨(i 0).val / 12000, ht⟩ : Fin cfg1.N) (1 : Fin 2) * 64 + 64
    omega

/-- The result array after the region: every row of the gathered messages times that edge's weight. -/
theorem final1 (V : (c : Dev nD) → (b : Ref sig .tc) → Buf (Elt F) ((c : Thread nD τ).loc b)) (c : Dev nD) :
    (dat1 (F := F) V c).arrAt 2 cfg1.N
      = Cert.Spec.Scale (F := F) (V c main_v27) (fun e => (V c main_v28 : S1200000x1.Idx → Elt F .f32) (ix2 (e 0) (0 : Fin 1))) :=
  (dat1 (F := F) V c).arrAt_eq_of_cover 2 _ (fun t _ => flushed1_eq V c t) cover1

end Cert.KernelIdeal.RegionValue

end
-- ==== Proof.Region2.lean ====
/-
  The last dense stage: every row of the aggregated messages plus the bias row.

  The [100000, 64] result is cut into 20 blocks of 5000 consecutive rows: grid point t owns rows 5000·t … 5000·t + 4999
  and all 64 columns. At point t the body reads block t of the aggregated messages (the same rows, the same columns) and
  the whole [1, 64] bias row, and stores one value per entry: entry (p, q) of the block is the sum of the messages' entry
  (5000·t + p, q) and the bias row's entry (0, q) — both shape casts are to the shape they start from, and the row
  broadcast reads row 0 at the same column. So entry (r, q) of the final array depends on the one entry (r, q) of the
  messages and on the one entry q of the bias, and it is written by the one point r / 5000. The 20 blocks tile the array,
  hence the array ends as that function at every index, whatever it held when the stage was entered. There is one float
  addition per entry and no law of arithmetic is used: the statement holds for every float instance.
-/
import proofs.«100785_j3143916060939_1_alg».proof.Proof.Gen.KernelIdeal.Frame
import proofs.«100785_j3143916060939_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]

/-- The zero offsets of a whole-buffer access, as a constant function. -/
theorem hz2 : (![0, 0] : Fin 2 → Nat) = fun _ => 0 := funext fun a => by fin_cases a <;> rfl

/-- ONE ENTRY OF A TILE: the stored value at (p, q) is the loaded messages' entry (p, q) plus the loaded bias row's
    entry (0, q). A shape cast to the same shape is the identity, and a [1, 64] row broadcast over 5000 rows reads, at
    (p, q), the row at (0, q). -/
theorem pay2_eq (x0 : Vec F S5000x64 .f32) (x1 : Vec F S1x64 .f32) (p : Fin 5000) (q : Fin 64) :
    k2_pay1 x0 x1 (ix2 p q) = FloatOps.addf (x0 (ix2 p q)) (x1 (ix2 (0 : Fin 1) q)) := by
  unfold k2_pay1
  show FloatOps.addf (shapeCast S5000x64 x0 shapeCasts_S5000x64_S5000x64 (ix2 p q))
      (broadcastTo S5000x64 (shapeCast S1x64 x1 shapeCasts_S1x64_S1x64) broadcasts_S1x64_S5000x64 (ix2 p q)) = _
  rw [shapeCast_self, shapeCast_self, broadcastTo_1b_ab_apply]

/-- The output buffer after the body is the stored value itself: the one store covers the whole buffer at zero offsets,
    and both loads read whole buffers at zero offsets. -/
theorem out2_eq (x0 : Vec F S5000x64 .f32) (x1 : Vec F S1x64 .f32) : out2_2 x0 x1 = k2_pay1 x0 x1 := by
  unfold out2_2
  rw [View.canon_unit_zero hz2]
  simp only [View.ld_unit_zero (S := S5000x64) hz2, View.ld_unit_zero (S := S1x64) hz2]

/-- The block indices at point t, decided over the 20 points: the result's and the messages' block is (t, 0), the bias
    row's is (0, 0). -/
theorem idx_facts2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- WHAT POINT t WRITES BACK is block t of "messages plus bias row" of the arrays as the stage finds them. Entry (p, q)
    of a block sits at block index × block size + 1 × (p, q): the messages' block and the result's block have the same
    index, so they name the same array entry (5000·t + p, q); the bias row's block is the whole row, so its entry (0, q)
    is the row's entry at the result's column q. -/
theorem flushed2_eq (V : (c : Dev nD) → (b : Ref sig .tc) → Buf (Elt F) ((c : Thread nD τ).loc b)) (c : Dev nD) (t : Fin cfg2.N) :
    (dat2 (F := F) V c).flushed 2 t = ((cfg2.win 2).blk t).view.read (Elt F)
      (Cert.Spec.Bias (F := F) (V c main_v32) (fun d => (V c main_v33 : S1x64.Idx → Elt F .f32) (ix2 (0 : Fin 1) (d 0)))) := by
  show (cfg2.win 2).cut (grid2.coords t) ((dat2 V c).after 2 t) = _
  rw [after2_2, out2_eq]
  obtain ⟨e0, e1, e2, e3, e4, e5⟩ := idx_facts2 t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
      = Cert.Spec.Bias (F := F) (V c main_v32) (fun d => (V c main_v33 : S1x64.Idx → Elt F .f32) (ix2 (0 : Fin 1) (d 0)))
          (((cfg2.win 2).blk t).view.emb (ix2 p q))
  refine (pay2_eq _ _ p q).trans ?_
  unfold Cert.Spec.Bias iblk2
  show FloatOps.addf (V c main_v32 (((cfg2.win 0).blk t).view.emb (ix2 p q)))
        (V c main_v33 (((cfg2.win 1).blk t).view.emb (ix2 (0 : Fin 1) q)))
      = FloatOps.addf (V c main_v32 (((cfg2.win 2).blk t).view.emb (ix2 p q)))
        (V c main_v33 (ix2 (0 : Fin 1) ((((cfg2.win 2).blk t).view.emb (ix2 p q)) 1)))
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * q.val = win2_2.index t (1 : Fin 2) * 64 + 1 * q.val; omega
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega
  rw [h0, h1]
  rfl

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v34).slice (win2_2.rect t)).set ↔ _
  rw [View.set_slice_whole, Rect.mem_set_unit]
  exact Iff.rfl

/-- THE BLOCKS TILE THE ARRAY: row r lies in the block of point r / 5000 (5000·(r / 5000) ≤ r < 5000·(r / 5000) + 5000,
    and r < 100000 gives r / 5000 < 20), every column lies in every block, and every point writes back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; rw [hN]; omega⟩
  refine ⟨t, flush2_2 t, ?_⟩
  obtain ⟨e0, e1, -, -, -, -⟩ := idx_facts2 t
  have ht : t.val = (i 0).val / 5000 := rfl
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE RESULT ARRAY after the stage: every row of the aggregated messages plus the bias row, at every index — each
    point writes its block of that function and the blocks cover the array. -/
theorem final2 (V : (c : Dev nD) → (b : Ref sig .tc) → Buf (Elt F) ((c : Thread nD τ).loc b)) (c : Dev nD) :
    (dat2 (F := F) V c).arrAt 2 cfg2.N
      = Cert.Spec.Bias (F := F) (V c main_v32) (fun d => (V c main_v33 : S1x64.Idx → Elt F .f32) (ix2 (0 : Fin 1) (d 0))) :=
  (dat2 (F := F) V c).arrAt_eq_of_cover 2 _ (fun t _ => flushed2_eq V c t) cover2

end Cert.KernelIdeal.RegionValue

end
-- ==== Proof.Stretches.lean ====
/-
  The host operations between the kernel launches, read as functions of the buffers they start from. Each stretch
  is read from an ARBITRARY valuation `W` of the buffers: what a buffer holds after the stretch is the stretch's
  operations applied to what `W` held, spelt with the functions of `Graph`; a buffer the stretch does not write
  keeps its contents.

    before the first launch   the edges' sources and targets, and every edge's weight 1/deg(source);
    before the second         the source rows of x·w gathered per edge, and the weights laid as a column;
    before the third          the messages scatter-added at the targets, and the bias laid as a row.
-/
import proofs.«100785_j3143916060939_1_alg».proof.Proof.Gen.KernelIdeal.Launch
import proofs.«100785_j3143916060939_1_alg».proof.Proof.Graph
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## Before the first launch: three stretches (the second is the outlined `where`) -/

set_option maxHeartbeats 2000000 in
theorem pre_v1 : after hostOps0_2 (after hostOps0_1 (after hostOps0 W)) (Proc.devRef .tc main_v1) = Cert.Graph.row (F := F) (W (Proc.devRef .tc main_arg1)) := by
  after_results_simp <;> rfl

set_option maxHeartbeats 2000000 in
theorem pre_v3 : after hostOps0_2 (after hostOps0_1 (after hostOps0 W)) (Proc.devRef .tc main_v3) = Cert.Graph.col (F := F) (W (Proc.devRef .tc main_arg1)) := by
  after_results_simp <;> rfl

set_option maxHeartbeats 2000000 in
theorem pre_v19 : after hostOps0_2 (after hostOps0_1 (after hostOps0 W)) (Proc.devRef .tc main_v19)
    = Cert.Graph.weightOf (F := F) (Cert.Graph.degInv (F := F) (Cert.Graph.row (F := F) (W (Proc.devRef .tc main_arg1)))) (Cert.Graph.row (F := F) (W (Proc.devRef .tc main_arg1))) := by
  after_results_simp <;> rfl

set_option maxHeartbeats 2000000 in
theorem pre_arg0 : after hostOps0_2 (after hostOps0_1 (after hostOps0 W)) (Proc.devRef .tc main_arg0) = W (Proc.devRef .tc main_arg0) := by
  after_results_simp <;> rfl

set_option maxHeartbeats 2000000 in
theorem pre_arg2 : after hostOps0_2 (after hostOps0_1 (after hostOps0 W)) (Proc.devRef .tc main_arg2) = W (Proc.devRef .tc main_arg2) := by
  after_results_simp <;> rfl

set_option maxHeartbeats 2000000 in
theorem pre_arg3 : after hostOps0_2 (after hostOps0_1 (after hostOps0 W)) (Proc.devRef .tc main_arg3) = W (Proc.devRef .tc main_arg3) := by
  after_results_simp <;> rfl

/-! ## Between the first and the second launch -/

theorem mid_v27 : after hostOps1 W (Proc.devRef .tc main_v27) = Cert.Graph.gatherRows (F := F) (W (Proc.devRef .tc main_v20)) (W (Proc.devRef .tc main_v1)) := by
  after_results_simp <;> rfl

theorem mid_v28 : after hostOps1 W (Proc.devRef .tc main_v28) = shapeCast S1200000x1 (W (Proc.devRef .tc main_v19) : S1200000.Idx → Elt F .f32) shapeCasts_S1200000_S1200000x1 := by
  after_results_simp <;> rfl

theorem mid_v3 : after hostOps1 W (Proc.devRef .tc main_v3) = W (Proc.devRef .tc main_v3) := by
  after_results_simp <;> rfl

theorem mid_arg3 : after hostOps1 W (Proc.devRef .tc main_arg3) = W (Proc.devRef .tc main_arg3) := by
  after_results_simp <;> rfl

/-! ## Between the second and the third launch -/

theorem post_v32 : after hostOps2 W (Proc.devRef .tc main_v32) = Cert.Graph.aggregate (F := F) (W (Proc.devRef .tc main_v3)) (W (Proc.devRef .tc main_v29)) := by
  after_results_simp <;> rfl

theorem post_v33 : after hostOps2 W (Proc.devRef .tc main_v33) = shapeCast S1x64 (W (Proc.devRef .tc main_arg3) : S64.Idx → Elt F .f32) shapeCasts_S64_S1x64 := by
  after_results_simp <;> rfl

end Cert.KernelIdeal.Stretch

end
-- ==== Proof.KernelRun.lean ====
/-
  The kernel's run with its result named. The program is three launches among stretches of host operations; the
  buffers' contents at each boundary are a fold from the launch memory. Read back along that fold, the result buffer
  holds, in order from the end:
    the third launch's output — its input array plus the bias row (given: `h2`),
    whose input is the scatter-add at the edges' targets of the second launch's output — the gathered rows
      scaled by the edges' weights (given: `h1`),
    whose inputs are the rows of the first launch's output — x·w (given: `h0`) — gathered at the edges' sources,
      and the weights 1/deg(source), laid as a column;
  the edge list's two rows and the weights come from the stretch before the first launch, untouched by the launches.
  A one-column (one-row) reshape read at (e, 0) (at (0, d)) is the flat array at e (at d).
  So the result buffer holds `Graph.result` of the four arguments, whatever the launch memory.
-/
import proofs.«100785_j3143916060939_1_alg».proof.Proof.Gen.KernelIdeal.Frame
import proofs.«100785_j3143916060939_1_alg».proof.Proof.Stretches
import proofs.«100785_j3143916060939_1_alg».proof.Proof.Graph
import Idealize.ShloMosaic.Lib.Pipeline.Value
import Idealize.ShloMosaic.Lib.ValueIdx

set_option maxRecDepth 16384

noncomputable section

namespace Cert.KernelIdeal.RunValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Two reshapes read at an index -/

/-- A flat array reshaped to one column, read at (e, 0), is the array at e. -/
theorem column_read {α : Type} (s : S1200000.Idx → α) :
    (fun e : S1200000.Idx => shapeCast S1200000x1 s shapeCasts_S1200000_S1200000x1 (ix2 (e 0) (0 : Fin 1))) = s := by
  funext e
  refine (shapeCast_apply s shapeCasts_S1200000_S1200000x1 (ix2 (e 0) (0 : Fin 1)) e ?_)
  rw [Shape.rowMajor_val_two, Shape.rowMajor_val_one]
  show (e 0).val = (e 0).val * 1 + 0
  omega

/-- A flat array reshaped to one row, read at (0, d), is the array at d. -/
theorem row_read {α : Type} (b : S64.Idx → α) :
    (fun d : S64.Idx => shapeCast S1x64 b shapeCasts_S64_S1x64 (ix2 (0 : Fin 1) (d 0))) = b := by
  funext d
  refine (shapeCast_apply b shapeCasts_S64_S1x64 (ix2 (0 : Fin 1) (d 0)) d ?_)
  rw [Shape.rowMajor_val_two, Shape.rowMajor_val_one]
  show (d 0).val = 0 * 64 + (d 0).val
  omega

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, the result buffer at the last boundary's contents -/

set_option backward.isDefEq.respectTransparency.types false in
/-- Every weakly fair execution terminates, the result buffer at the last boundary's contents and the arguments as
    launched: the launch theorem over the program's eight segments, the last thread state read against the final
    state at the result buffer and at each argument. -/
theorem run_last : θ_run defs (onTc (τ := τ) (main (F := F))) ⟨m, fun _ => 0, ρ⟩ (fun r => ∀ c : Dev nD,
      r.2.mem ((c.tc : Thread nD τ).loc main_v34) = W8 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v34 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

/-! ## The result buffer's contents, read back along the fold -/

section Value

variable (m : (ℓ : Loc nD τ sig) → Buf (Elt Ideal) ℓ) (ρ : Dev nD → PrngReg)

/-- Given each launch's output array as a function of the arrays the launch finds (`h0`: x·w; `h1`: rows scaled by
    the column of weights; `h2`: rows plus the bias row), the result buffer at the last boundary holds the layer's
    function of the four arguments. -/
theorem last_eq
    (h0 : ∀ (V : (c : Dev nD) → (b : Ref sig .tc) → Buf (Elt Ideal) ((c : Thread nD τ).loc b)) (c : Dev nD),
      (dat0 (F := Ideal) V c).arrAt 2 cfg0.N = Cert.Spec.MM (V c main_arg0) (V c main_arg2))
    (h1 : ∀ (V : (c : Dev nD) → (b : Ref sig .tc) → Buf (Elt Ideal) ((c : Thread nD τ).loc b)) (c : Dev nD),
      (dat1 (F := Ideal) V c).arrAt 2 cfg1.N
        = Cert.Spec.Scale (F := Ideal) (V c main_v27) (fun e => (V c main_v28 : S1200000x1.Idx → Elt Ideal .f32) (ix2 (e 0) (0 : Fin 1))))
    (h2 : ∀ (V : (c : Dev nD) → (b : Ref sig .tc) → Buf (Elt Ideal) ((c : Thread nD τ).loc b)) (c : Dev nD),
      (dat2 (F := Ideal) V c).arrAt 2 cfg2.N
        = Cert.Spec.Bias (F := Ideal) (V c main_v32) (fun d => (V c main_v33 : S1x64.Idx → Elt Ideal .f32) (ix2 (0 : Fin 1) (d 0))))
    (c : Dev nD) :
    W8 m ρ c (Proc.devRef .tc main_v34)
      = Cert.Graph.result (m ((c : Thread nD τ).loc main_arg0)) (m ((c : Thread nD τ).loc main_arg1)) (m ((c : Thread nD τ).loc main_arg2)) (m ((c : Thread nD τ).loc main_arg3)) := by
  -- the third launch's output, and what its two inputs hold
  have e34 : W8 m ρ c (Proc.devRef .tc main_v34) = (dat2 (V7 m ρ) c).arrAt 2 cfg2.N := W8_arr m ρ c 2
  have e32 : V7 m ρ c main_v32 = Cert.Graph.aggregate (F := Ideal) (W6 m ρ c (Proc.devRef .tc main_v3)) (W6 m ρ c (Proc.devRef .tc main_v29)) :=
    Stretch.post_v32 (W6 m ρ c)
  have e33 : V7 m ρ c main_v33 = shapeCast S1x64 (W6 m ρ c (Proc.devRef .tc main_arg3) : S64.Idx → Elt Ideal .f32) shapeCasts_S64_S1x64 :=
    Stretch.post_v33 (W6 m ρ c)
  -- the second launch's output, and what its two inputs hold
  have e29 : W6 m ρ c (Proc.devRef .tc main_v29) = (dat1 (V5 m ρ) c).arrAt 2 cfg1.N := W6_arr m ρ c 2
  have e27 : V5 m ρ c main_v27 = Cert.Graph.gatherRows (F := Ideal) (W4 m ρ c (Proc.devRef .tc main_v20)) (W4 m ρ c (Proc.devRef .tc main_v1)) :=
    Stretch.mid_v27 (W4 m ρ c)
  have e28 : V5 m ρ c main_v28 = shapeCast S1200000x1 (W4 m ρ c (Proc.devRef .tc main_v19) : S1200000.Idx → Elt Ideal .f32) shapeCasts_S1200000_S1200000x1 :=
    Stretch.mid_v28 (W4 m ρ c)
  -- the first launch's output, and its two inputs: the arguments
  have e20 : W4 m ρ c (Proc.devRef .tc main_v20) = (dat0 (V3 m ρ) c).arrAt 2 cfg0.N := W4_arr m ρ c 2
  have ea0 : V3 m ρ c main_arg0 = (m ((c : Thread nD τ).loc main_arg0)) := Stretch.pre_arg0 (W0 m ρ c)
  have ea2 : V3 m ρ c main_arg2 = (m ((c : Thread nD τ).loc main_arg2)) := Stretch.pre_arg2 (W0 m ρ c)
  -- what no launch writes: the edges' sources and targets, the weights, the bias
  have e1 : W4 m ρ c (Proc.devRef .tc main_v1) = Cert.Graph.row (F := Ideal) (m ((c : Thread nD τ).loc main_arg1)) :=
    (W4_of_ne m ρ c main_v1 (by decide)).trans (Stretch.pre_v1 (W0 m ρ c))
  have e19 : W4 m ρ c (Proc.devRef .tc main_v19)
      = Cert.Graph.weightOf (F := Ideal) (Cert.Graph.degInv (F := Ideal) (Cert.Graph.row (F := Ideal) (m ((c : Thread nD τ).loc main_arg1)))) (Cert.Graph.row (F := Ideal) (m ((c : Thread nD τ).loc main_arg1))) :=
    (W4_of_ne m ρ c main_v19 (by decide)).trans (Stretch.pre_v19 (W0 m ρ c))
  have e3 : W6 m ρ c (Proc.devRef .tc main_v3) = Cert.Graph.col (F := Ideal) (m ((c : Thread nD τ).loc main_arg1)) :=
    (W6_of_ne m ρ c main_v3 (by decide)).trans ((Stretch.mid_v3 (W4 m ρ c)).trans
      ((W4_of_ne m ρ c main_v3 (by decide)).trans (Stretch.pre_v3 (W0 m ρ c))))
  have eb : W6 m ρ c (Proc.devRef .tc main_arg3) = (m ((c : Thread nD τ).loc main_arg3)) :=
    (W6_of_ne m ρ c main_arg3 (by decide)).trans ((Stretch.mid_arg3 (W4 m ρ c)).trans
      ((W4_of_ne m ρ c main_arg3 (by decide)).trans (Stretch.pre_arg3 (W0 m ρ c))))
  rw [e34, h2 (V7 m ρ) c, e32, e33, e29, h1 (V5 m ρ) c, e27, e28, e20, h0 (V3 m ρ) c, ea0, ea2, e1, e19, e3, eb,
    column_read, row_read]
  rfl

end Value

end Cert.KernelIdeal.RunValue

end
-- ==== Proof.lean ====
/-
  The graph-convolution kernel against its jnp reference, on the extended reals.

  Both programs compute, from node features x [100000, 64], an edge list [2, 1200000], a weight matrix w [64, 64]
  and a bias b [64]:  out = segment_sum((x·w)[src] · (1/deg)[src], dst) + b,  with deg the out-degree of the source.
  The kernel runs the three dense stages — the matrix product, the per-edge scaling and the bias addition — as
  three launches over row blocks, and leaves the degree count, the two gathers and the scatter-add to the same host
  operations the reference uses. At the ideal instance a change of float format is the identity and a block's matrix
  product into a zero accumulator is the plain sum over the contracted axis, so each launch's output array is the
  corresponding whole-array function (`Spec.MM`, `Spec.Scale`, `Spec.Bias`) of the arrays it finds, block by block;
  the reference's product, scaling and bias addition are the same three functions (the broadcasts read at an index).
  The irregular operations are never opened: both sides apply them to equal operands. No law of the extended
  reals beyond re-indexing one finite sum is used, and the precondition is not opened.

  The three frames: the two kernel programs' are the generated frames; the reference's is its run with the result
  dropped. The idealization rewrote nothing, so `preserves` is trivial.
-/
import proofs.«100785_j3143916060939_1_alg».proof.Defs
import proofs.«100785_j3143916060939_1_alg».proof.Proof.Gen.Kernel
import proofs.«100785_j3143916060939_1_alg».proof.Proof.Gen.Kernel.Frame
import proofs.«100785_j3143916060939_1_alg».proof.Proof.Gen.KernelIdeal
import proofs.«100785_j3143916060939_1_alg».proof.Proof.Gen.KernelIdeal.Frame
import proofs.«100785_j3143916060939_1_alg».proof.Proof.Gen.ReferenceIdeal
import proofs.«100785_j3143916060939_1_alg».proof.Proof.Gen.Pre_finite_inputs
import proofs.«100785_j3143916060939_1_alg».proof.Proof.RefRun
import proofs.«100785_j3143916060939_1_alg».proof.Proof.RefValue
import proofs.«100785_j3143916060939_1_alg».proof.Proof.Region0
import proofs.«100785_j3143916060939_1_alg».proof.Proof.Region1
import proofs.«100785_j3143916060939_1_alg».proof.Proof.Region2
import proofs.«100785_j3143916060939_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the four arguments both programs end with the result array at `Graph.result` of
    them: the kernel's three launches read back along its run, the reference's composed term read stage by stage. -/
theorem algebraic : Cert.algebraic_KernelIdeal_ReferenceIdeal := by
  intro m ρ m' ρ' _ hagree
  refine ⟨fun c => Cert.Graph.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.RunValue.last_eq m ρ
          Cert.KernelIdeal.RegionValue.final0 Cert.KernelIdeal.RegionValue.final1 Cert.KernelIdeal.RegionValue.final2 c), (h c).2⟩)
      (Cert.KernelIdeal.RunValue.run_last (F := Ideal) m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2.1, (hagree c).2.2.2]
    exact Cert.Graph.ref_result _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
